-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .une main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x8192 .f32) (main_arg1 : FVec F S8192x128 .f32) (main_arg2 : FVec F S128x128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg0 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x8192 : Shape := ⟨2, ![8192, 8192]⟩
abbrev S8192x128 : Shape := ⟨2, ![8192, 128]⟩
abbrev S128x128 : Shape := ⟨2, ![128, 128]⟩
abbrev S512x4096 : Shape := ⟨2, ![512, 4096]⟩
abbrev S512x128 : Shape := ⟨2, ![512, 128]⟩
abbrev S512x1 : Shape := ⟨2, ![512, 1]⟩
abbrev S512 : Shape := ⟨1, ![512]⟩
abbrev S4096x128 : Shape := ⟨2, ![4096, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S8192x128, .f32⟩
  | .local _ .vmem, ⟨3, _⟩ => ⟨S128x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c4096_i32 : BitVec 32 := 4096#32
  let v11 : BitVec 32 := Scalar.muli arg1 c4096_i32
  v11
def k0_off1 (i : grid0.Coords) : Fin 2 → Nat :=
  let arg1 : BitVec 32 := BitVec.ofNat 32 (i 1).val
  let c4096_i32 : BitVec 32 := 4096#32
  let v11 : BitVec 32 := Scalar.muli arg1 c4096_i32
  let v12 : BitVec 32 := v11
  let v13 : Index := Scalar.indexCast v12
  let c0_6 : Index := 0#32
  ![v13.toNat, 0]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  h_S4096x128 : 0 < S4096x128.numel
  bitsLt_bf16_f32 : FTy.bits .bf16 < FTy.bits .f32
  broadcasts_S512x1_S512x128 : S512x1.Broadcasts S512x128
  inb_S128x128_S128x128_0_0 : ∀ a, (![0, 0] : Fin 2 → Nat) a + S128x128.size a ≤ S128x128.size a
  h_S128x128 : 0 < S128x128.numel
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .f32 = 32 ∨ (Rect.block (s := S8192x8192) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S_ : Shape := ⟨0, ![]⟩
abbrev S8192 : Shape := ⟨1, ![8192]⟩
abbrev S8192x1 : Shape := ⟨2, ![8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x128, .f32⟩
  | .hbm, ⟨9, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelPieces.lean ====
/-
  What one grid point's body leaves behind, as the body's own arithmetic.

  The grid has 32 points `t = 2·i + k`: `i < 16` picks 512 rows of `adj`, `k < 2` picks 4096 of its columns (and the
  same 4096 rows of `X`).  Two buffers are carried from a point to the next: a 512×128 accumulator and a 512×1 column of
  row sums.  At `k = 0` both are first filled with zeros; at every point the column gains the block's row sums and the
  accumulator gains the product of the block of `adj` with the slab of `X`; at `k = 1` the output tile is the
  accumulator divided row by row by the column, times `W`.  Each lemma below says that what a point leaves in a buffer
  is the corresponding arithmetic term of the blocks the point reads and of what the point before left.
-/
import proofs.«149731_j73186242723952_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open Idealize.SL.Sem
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- The slab of `X` a point reads: 4096 consecutive rows starting at 4096 times the point's second coordinate. -/
def xslab (i : grid0.Coords) (x1 : Vec F S8192x128 .f32) : Vec F S4096x128 .f32 :=
  View.ld x1 (Rect.unit (s := S8192x128) (k0_off1 i) S4096x128.size (k0_off1_inb i))

/-- At a first point of a row tile the column of row sums ends at zero plus the block's row sums. -/
theorem rowsums_first (c : Dev nD) (i : grid0.Coords) (a2 : Memref sig .tc .vmem S512x4096 .f32) (h2 : a2.IsWhole) (a3 : Memref sig .tc .vmem S8192x128 .f32) (h3 : a3.IsWhole) (a4 : Memref sig .tc .vmem S128x128 .f32) (h4 : a4.IsWhole) (a5 : Memref sig .tc .vmem S512x128 .f32) (h5 : a5.IsWhole) (a6 : Memref sig .tc .vmem S512x128 .f32) (h6 : a6.IsWhole) (a7 : Memref sig .tc .vmem S512x1 .f32) (h7 : a7.IsWhole) (hc0 : cond0_0 i) (hc1 : ¬cond0_1 i) (x0 : Vec F S512x4096 .f32) (x1 : Vec F S8192x128 .f32) (x2 : Vec F S128x128 .f32) :
    sout0_A_1 c i a2 h2 a3 h3 a4 h4 a5 h5 a6 h6 a7 h7 hc0 hc1 x0 x1 x2 = k0_pay3 x0 (k0_pay2 (F := F)) := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S512x1) hz, View.readCov_unit_zero (S := S512x1) _ hz]
  simp only [View.readAt_eq_ld, h2.read_unread, View.ld_unit_zero (S := S512x4096) hz]

/-- At a first point of a row tile the accumulator ends at zero plus the block of `adj` times the slab of `X`. -/
theorem acc_first (c : Dev nD) (i : grid0.Coords) (a2 : Memref sig .tc .vmem S512x4096 .f32) (h2 : a2.IsWhole) (a3 : Memref sig .tc .vmem S8192x128 .f32) (h3 : a3.IsWhole) (a4 : Memref sig .tc .vmem S128x128 .f32) (h4 : a4.IsWhole) (a5 : Memref sig .tc .vmem S512x128 .f32) (h5 : a5.IsWhole) (a6 : Memref sig .tc .vmem S512x128 .f32) (h6 : a6.IsWhole) (a7 : Memref sig .tc .vmem S512x1 .f32) (h7 : a7.IsWhole) (hc0 : cond0_0 i) (hc1 : ¬cond0_1 i) (x0 : Vec F S512x4096 .f32) (x1 : Vec F S8192x128 .f32) (x2 : Vec F S128x128 .f32) :
    sout0_A_0 c i a2 h2 a3 h3 a4 h4 a5 h5 a6 h6 a7 h7 hc0 hc1 x0 x1 x2 = k0_pay4 x0 (xslab i x1) (k0_pay1 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S512x128) hz, View.readCov_unit_zero (S := S512x128) _ hz]
  simp only [View.readAt_eq_ld, h2.read_unread, h3.read_unread, View.ld_unit_zero (S := S512x4096) hz]
  rfl

/-- At a last point the output tile is the epilogue's term of the updated accumulator, the updated column and `W`. -/
theorem tile_last (c : Dev nD) (i : grid0.Coords) (a2 : Memref sig .tc .vmem S512x4096 .f32) (h2 : a2.IsWhole) (a3 : Memref sig .tc .vmem S8192x128 .f32) (h3 : a3.IsWhole) (a4 : Memref sig .tc .vmem S128x128 .f32) (h4 : a4.IsWhole) (a5 : Memref sig .tc .vmem S512x128 .f32) (h5 : a5.IsWhole) (a6 : Memref sig .tc .vmem S512x128 .f32) (h6 : a6.IsWhole) (a7 : Memref sig .tc .vmem S512x1 .f32) (h7 : a7.IsWhole) (hc0 : ¬cond0_0 i) (hc1 : cond0_1 i) (x0 : Vec F S512x4096 .f32) (x1 : Vec F S8192x128 .f32) (x2 : Vec F S128x128 .f32) (xs0 : Vec F S512x128 .f32) (xs1 : Vec F S512x1 .f32) :
    out0_B_3 c i a2 h2 a3 h3 a4 h4 a5 h5 a6 h6 a7 h7 hc0 hc1 x0 x1 x2 xs0 xs1 = k0_pay5 (k0_pay4 x0 (xslab i x1) xs0) (k0_pay3 x0 xs1) x2 := by
  unfold out0_B_3
  rw [View.read_writes_eq_canon _ _ _ (cover0_B_3 c i a2 h2 a3 h3 a4 h4 a5 h5 a6 h6 a7 h7 hc0 hc1 x0 x1 x2 xs0 xs1)]
  unfold kernelRun0_B
  dsimp only
  sl_unfold_words
  rw [View.canon_unit_zero (S := S512x128) hz, View.readCov_unit_zero (S := S512x128) _ hz, View.readCov_unit_zero (S := S512x1) _ hz]
  simp only [View.readAt_eq_ld, h2.read_unread, h3.read_unread, h4.read_unread, h6.read_unread, h7.read_unread, View.ld_unit_zero (S := S512x4096) hz, View.ld_unit_zero (S := S512x1) hz, View.ld_unit_zero (S := S512x128) hz, View.ld_unit_zero (S := S128x128) hz]
  rfl

end Cert.KernelIdeal.Pieces

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KernelTile.lean ====
/-
  The body's arithmetic read at an entry, on the extended reals.

  Write `A` for a 512×4096 block of `adj`, `S` for a 4096×128 slab of `X`.  On the extended reals a change of float
  format is the identity, a matrix product into a zero accumulator is the plain sum of products, and a sum along the
  lanes is the plain sum.  So, at row `p`:
  * the column of row sums gains `∑ c, A (p, c)`;
  * the accumulator's entry `(p, d)` gains `∑ c, A (p, c) * S (c, d)`;
  * the output tile's entry `(p, q)` is `∑ d, (acc (p, d) / rs p) * W (d, q)`.
  After the two points of a row tile, starting from zeros, the tile's entry is therefore
  `∑ d, ((∑ c, A₀ (p,c) S₀ (c,d)) + ∑ c, A₁ (p,c) S₁ (c,d)) / ((∑ c, A₀ (p,c)) + ∑ c, A₁ (p,c)) * W (d, q)`.
-/
import proofs.«149731_j73186242723952_2_alg».proof.Proof.Gen.KernelIdeal.Skeleton
import proofs.«149731_j73186242723952_2_alg».proof.Proof.LibDot
import proofs.«149731_j73186242723952_2_alg».proof.Proof.LibKeepdims
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx
open Cert.KernelIdeal Cert.KernelIdeal.Gen

/-- The accumulator's zero fill is zero at every entry. -/
theorem zeros_acc (j : S512x128.Idx) : k0_pay1 (F := Ideal) j = 0 := by
  show shapeCast S512x128 (broadcast S512x128 (Scalar.ofBits (F := Ideal) .f32 0x00000000#32)) shapeCasts_S512x128_S512x128 j = 0
  rw [shapeCast_self]
  exact Ideal.ofBits_zero_f32

/-- The row-sum column's zero fill is zero at every entry. -/
theorem zeros_col (j : S512x1.Idx) : k0_pay2 (F := Ideal) j = 0 := by
  show shapeCast S512x1 (broadcast S512x1 (Scalar.ofBits (F := Ideal) .f32 0x00000000#32)) shapeCasts_S512x1_S512x1 j = 0
  rw [shapeCast_self]
  exact Ideal.ofBits_zero_f32

/-- The column of row sums after a point: what it held plus the block's row sum. -/
theorem rowsums_apply (A : Vec Ideal S512x4096 .f32) (v : Vec Ideal S512x1 .f32) (p : Fin 512) :
    k0_pay3 A v (ix2 p 0) = v (ix2 p 0) + ∑ c : Fin 4096, A (ix2 p c) := by
  show shapeCast S512x1 (addf v (shapeCast S512x1 (multiReduction (F := Ideal) .add [1] S512 A 0x00000000#32 reduces_S512x4096_S512 (.inl rfl) rfl) shapeCasts_S512_S512x1)) shapeCasts_S512x1_S512x1 (ix2 p 0) = _
  rw [shapeCast_self]
  refine congrArg (v (ix2 p 0) + ·) ?_
  refine (shapeCast_a_a1_apply _ shapeCasts_S512_S512x1 p 0).trans ?_
  refine (Ideal.multiReduction_add_single A _ reduces_S512x4096_S512 (.inl rfl) rfl (ix1 p)).trans ?_
  exact Finset.sum_congr rfl fun c _ => congrArg A (funext fun a => Fin.ext (by match a with | ⟨0, _⟩ => rfl | ⟨1, _⟩ => rfl))

/-- The accumulator after a point: what it held plus the block of `adj` times the slab of `X`. -/
theorem acc_apply (A : Vec Ideal S512x4096 .f32) (S : Vec Ideal S4096x128 .f32) (acc : Vec Ideal S512x128 .f32)
    (p : Fin 512) (d : Fin 128) :
    k0_pay4 A S acc (ix2 p d) = acc (ix2 p d) + ∑ c : Fin 4096, A (ix2 p c) * S (ix2 c d) := by
  show shapeCast S512x128 (addf acc (matmul dot_S512x4096_S4096x128_S512x128_1_0_0_1_n_n none (truncf .bf16 A bitsLt_bf16_f32) (truncf .bf16 S bitsLt_bf16_f32) (constant (F := Ideal) S512x128 .f32 0x00000000#32))) shapeCasts_S512x128_S512x128 (ix2 p d) = _
  rw [shapeCast_self]
  refine congrArg (acc (ix2 p d) + ·) ?_
  exact Cert.LibDot.matmul_zero_apply dot_S512x4096_S4096x128_S512x128_1_0_0_1_n_n_wf none
    (truncf .bf16 A bitsLt_bf16_f32) (truncf .bf16 S bitsLt_bf16_f32) p d

/-- The output tile: the accumulator divided row by row by the column of row sums, times `W`. -/
theorem epilogue_apply (acc : Vec Ideal S512x128 .f32) (rs : Vec Ideal S512x1 .f32) (W : Vec Ideal S128x128 .f32)
    (p : Fin 512) (q : Fin 128) :
    k0_pay5 acc rs W (ix2 p q) = ∑ d : Fin 128, Ideal.div (acc (ix2 p d)) (rs (ix2 p 0)) * W (ix2 d q) := by
  show matmul dot_S512x128_S128x128_S512x128_1_0_0_1_n_n none (truncf .bf16 (divf acc (broadcastTo S512x128 rs broadcasts_S512x1_S512x128)) bitsLt_bf16_f32) (truncf .bf16 W bitsLt_bf16_f32) (constant (F := Ideal) S512x128 .f32 0x00000000#32) (ix2 p q) = _
  refine (Cert.LibDot.matmul_zero_apply dot_S512x128_S128x128_S512x128_1_0_0_1_n_n_wf none _ _ p q).trans ?_
  refine Finset.sum_congr rfl fun d _ => ?_
  show Ideal.div (acc (ix2 p d)) (broadcastTo S512x128 rs broadcasts_S512x1_S512x128 (ix2 p d)) * W (ix2 d q) = _
  rw [broadcastTo_a1_ab_apply]

/-- The output tile after the two points of a row tile, from zeros. -/
theorem tile_apply (A0 A1 : Vec Ideal S512x4096 .f32) (S0 S1 : Vec Ideal S4096x128 .f32) (W : Vec Ideal S128x128 .f32)
    (p : Fin 512) (q : Fin 128) :
    k0_pay5 (k0_pay4 A1 S1 (k0_pay4 A0 S0 (k0_pay1 (F := Ideal)))) (k0_pay3 A1 (k0_pay3 A0 (k0_pay2 (F := Ideal)))) W (ix2 p q)
      = ∑ d : Fin 128, Ideal.div
          ((∑ c : Fin 4096, A0 (ix2 p c) * S0 (ix2 c d)) + ∑ c : Fin 4096, A1 (ix2 p c) * S1 (ix2 c d))
          ((∑ c : Fin 4096, A0 (ix2 p c)) + ∑ c : Fin 4096, A1 (ix2 p c)) * W (ix2 d q) := by
  rw [epilogue_apply]
  refine Finset.sum_congr rfl fun d _ => ?_
  rw [acc_apply, acc_apply, zeros_acc, zero_add, rowsums_apply, rowsums_apply, zeros_col, zero_add]

end Cert.KernelIdeal.Tile

end
-- ==== Proof.GcnSpec.lean ====
/-
  The layer as one function of the whole arrays.

  For `adj : 8192×8192`, `X : 8192×128`, `W : 128×128` over the extended reals, with `s r = ∑ c, adj (r, c)` the
  sum of row `r`:

      out (r, o) = ∑ d, ((∑ c, adj (r, c) * X (c, d)) / s r) * W (d, o).

  This is the aggregate-then-normalise form: the whole weighted sum of row `r` is divided once by the row sum.
  Also here: a sum over 8192 consecutive positions is the sum over the first 4096 plus the sum over the last 4096
  (addition of extended reals is commutative and associative, so no finiteness is involved).
-/
import Idealize.ShloMosaic.PureOps.Ideal
import Idealize.ShloMosaic.Lib.ValueIdx

noncomputable section

namespace Cert.Gcn

open Idealize.ShloMosaic Idealize.ShloMosaic.ValueIdx

/-- The sum of row `r` of `adj`. -/
def rowSum (A : (⟨2, ![8192, 8192]⟩ : Shape).Idx → EReal) (r : Fin 8192) : EReal :=
  ∑ c : Fin 8192, A (ix2 r c)

/-- Row `r` of `adj` against column `d` of `X`. -/
def agg (A : (⟨2, ![8192, 8192]⟩ : Shape).Idx → EReal) (X : (⟨2, ![8192, 128]⟩ : Shape).Idx → EReal)
    (r : Fin 8192) (d : Fin 128) : EReal :=
  ∑ c : Fin 8192, A (ix2 r c) * X (ix2 c d)

/-- The layer's result at `(r, o)`. -/
def out (A : (⟨2, ![8192, 8192]⟩ : Shape).Idx → EReal) (X : (⟨2, ![8192, 128]⟩ : Shape).Idx → EReal)
    (W : (⟨2, ![128, 128]⟩ : Shape).Idx → EReal) : (⟨2, ![8192, 128]⟩ : Shape).Idx → EReal :=
  fun j => ∑ d : Fin 128, Ideal.div (agg A X (j 0) d) (rowSum A (j 0)) * W (ix2 d (j 1))

/-- Position `k` of the first half of 8192 positions. -/
abbrev lo (k : Fin 4096) : Fin 8192 := ⟨k.val, by omega⟩
/-- Position `k` of the second half. -/
abbrev hi (k : Fin 4096) : Fin 8192 := ⟨4096 + k.val, by omega⟩

/-- A sum over 8192 positions is the sum over its two halves. -/
theorem sum_halves {M : Type*} [AddCommMonoid M] (f : Fin 8192 → M) :
    ∑ c : Fin 8192, f c = (∑ k : Fin 4096, f (lo k)) + ∑ k : Fin 4096, f (hi k) := by
  exact Fin.sum_univ_add (a := 4096) (b := 4096) (f : Fin (4096 + 4096) → M)

/-- The layer's result at `(r, q)` from the two halves of row `r` of `adj` and the two halves of the rows of `X`:
    the two partial weighted sums add up to the whole one, and the two partial row sums to the whole row sum. -/
theorem out_of_halves (A : (⟨2, ![8192, 8192]⟩ : Shape).Idx → EReal) (X : (⟨2, ![8192, 128]⟩ : Shape).Idx → EReal)
    (W : (⟨2, ![128, 128]⟩ : Shape).Idx → EReal) (r : Fin 8192) (q : Fin 128)
    (A0 A1 : Fin 4096 → EReal) (S0 S1 : Fin 4096 → Fin 128 → EReal) (Wq : Fin 128 → EReal)
    (hA0 : ∀ k, A0 k = A (ix2 r (lo k))) (hA1 : ∀ k, A1 k = A (ix2 r (hi k)))
    (hS0 : ∀ k d, S0 k d = X (ix2 (lo k) d)) (hS1 : ∀ k d, S1 k d = X (ix2 (hi k) d))
    (hW : ∀ d, Wq d = W (ix2 d q)) :
    (∑ d : Fin 128, Ideal.div ((∑ k : Fin 4096, A0 k * S0 k d) + ∑ k : Fin 4096, A1 k * S1 k d)
        ((∑ k : Fin 4096, A0 k) + ∑ k : Fin 4096, A1 k) * Wq d) = out A X W (ix2 r q) := by
  show _ = ∑ d : Fin 128, Ideal.div (agg A X r d) (rowSum A r) * W (ix2 d q)
  refine Finset.sum_congr rfl fun d _ => ?_
  unfold agg rowSum
  rw [sum_halves (fun cc => A (ix2 r cc) * X (ix2 cc d)), sum_halves (fun cc => A (ix2 r cc))]
  simp only [hA0, hA1, hS0, hS1, hW]

end Cert.Gcn

end
-- ==== Proof.KernelWhole.lean ====
/-
  From the tiles to the whole result array.

  Grid point `t = 2·i + k` reads block `(i, k)` of `adj` (rows `512·i …`, columns `4096·k …`), the whole of `X` (of
  which the body takes rows `4096·k …`) and the whole of `W`; the odd points `t = 2·i + 1` write tile `i` (rows
  `512·i …`) of the result.  Row `r = 512·i + p` of `adj` is therefore split between the two points of row tile `i`
  into its first and its second 4096 entries, and the rows of `X` likewise, so the tile's entry `(p, q)` — computed from
  two partial weighted sums and two partial row sums — is the layer's result at `(r, q)`.  The 16 tiles cover the
  8192 rows, so the result array ends holding the layer's function of the argument arrays.
-/
import proofs.«149731_j73186242723952_2_alg».proof.Proof.Gen.KernelIdeal.Value
import proofs.«149731_j73186242723952_2_alg».proof.Proof.KernelPieces
import proofs.«149731_j73186242723952_2_alg».proof.Proof.KernelTile
import proofs.«149731_j73186242723952_2_alg».proof.Proof.GcnSpec
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Where each window's block sits at grid point `t = 2·i + k`: the block of `adj` is block `(i, k)`, `X` and `W` are
    whole, the output tile is block `(i, 0)`, and the slab of `X` starts at row `4096·k`. -/
theorem where_blocks : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = 0
    ∧ k0_off1 (grid0.coords t) (0 : Fin 2) = 4096 * (t.val % 2) ∧ k0_off1 (grid0.coords t) (1 : Fin 2) = 0 :=
  (by decide +kernel : ∀ t : Fin grid0.N, _)

/-- The block of `adj` at point `t`, entry `(p, k)`: the array's entry `(512·(t/2) + p, 4096·(t%2) + k)`. -/
theorem adj_block (c : Dev nD) (t : Fin cfg0.N) (p : Fin 512) (k : Fin 4096) (r cc : Fin 8192)
    (hr : r.val = 512 * (t.val / 2) + p.val) (hc : cc.val = 4096 * (t.val % 2) + k.val) :
    (iblk m c 0 t : Vec Ideal S512x4096 .f32) (ix2 p k) = m ((c : Thread nD τ).loc main_arg0) (ix2 r cc) := by
  obtain ⟨e0, e1, -⟩ := where_blocks t
  show V m c main_arg0 (((cfg0.win 0).blk t).view.emb (ix2 p k)) = V m c main_arg0 (ix2 r cc)
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = cc.val; omega

/-- The slab of `X` at point `t`, entry `(k, d)`: the array's entry `(4096·(t%2) + k, d)`. -/
theorem x_slab (c : Dev nD) (t : Fin cfg0.N) (k : Fin 4096) (d : Fin 128) (cc : Fin 8192)
    (hc : cc.val = 4096 * (t.val % 2) + k.val) :
    Pieces.xslab (grid0.coords t) (iblk m c 1 t : Vec Ideal S8192x128 .f32) (ix2 k d) = m ((c : Thread nD τ).loc main_arg1) (ix2 cc d) := by
  obtain ⟨-, -, e2, e3, -, -, -, -, e8, e9⟩ := where_blocks t
  show V m c main_arg1 (((cfg0.win 1).blk t).view.emb ((Rect.unit (s := S8192x128) (k0_off1 (grid0.coords t)) S4096x128.size (k0_off1_inb (grid0.coords t))).emb (ix2 k d))) = V m c main_arg1 (ix2 cc d)
  refine congrArg _ (funext fun a => Fin.ext ?_)
  match a with
  | ⟨0, _⟩ => show win0_1.index t (0 : Fin 2) * 8192 + 1 * (k0_off1 (grid0.coords t) (0 : Fin 2) + 1 * k.val) = cc.val; omega
  | ⟨1, _⟩ => show win0_1.index t (1 : Fin 2) * 128 + 1 * (k0_off1 (grid0.coords t) (1 : Fin 2) + 1 * d.val) = d.val; omega

/-- `W` is staged whole. -/
theorem w_block (c : Dev nD) (t : Fin cfg0.N) (d q : Fin 128) :
    (iblk m c 2 t : Vec Ideal S128x128 .f32) (ix2 d q) = m ((c : Thread nD τ).loc main_arg2) (ix2 d q) := by
  obtain ⟨-, -, -, -, e4, e5, -⟩ := where_blocks t
  show V m c main_arg2 (((cfg0.win 2).blk t).view.emb (ix2 d q)) = V m c main_arg2 (ix2 d q)
  refine congrArg _ (funext fun a => Fin.ext ?_)
  match a with
  | ⟨0, _⟩ => show win0_2.index t (0 : Fin 2) * 128 + 1 * d.val = d.val; omega
  | ⟨1, _⟩ => show win0_2.index t (1 : Fin 2) * 128 + 1 * q.val = q.val; omega

/-- The result array: the layer's function of the three argument arrays. -/
abbrev result (c : Dev nD) : Buf (Elt Ideal) ((c : Thread nD τ).loc main_v0) :=
  Gcn.out (m ((c : Thread nD τ).loc main_arg0)) (m ((c : Thread nD τ).loc main_arg1)) (m ((c : Thread nD τ).loc main_arg2))

/-- The tile an odd point `t` writes, at entry `j = (p, q)`, is the layer's result at row `512·(t/2) + p`, column `q`: the
    two blocks of `adj` the row tile's two points read are the two halves of the row, and the two slabs of `X` the
    two halves of its rows, so the two partial sums add up to the whole sums. -/
theorem tile_at (c : Dev nD) (t t' : Fin cfg0.N) (h1 : t.val % 2 = 1) (ht' : t'.val = t.val - 1)
    (j : S512x128.Idx) (r : Fin 8192) (hr : r.val = 512 * (t.val / 2) + (j 0).val) :
    k0_pay5 (k0_pay4 (iblk m c 0 t) (Pieces.xslab (grid0.coords t) (iblk m c 1 t))
        (k0_pay4 (iblk m c 0 t') (Pieces.xslab (grid0.coords t') (iblk m c 1 t')) (k0_pay1 (F := Ideal))))
      (k0_pay3 (iblk m c 0 t) (k0_pay3 (iblk m c 0 t') (k0_pay2 (F := Ideal)))) (iblk m c 2 t) j
    = result m c (ix2 r (j 1)) := by
  have hN : cfg0.N = 32 := N_0
  have htl := t.isLt
  obtain ⟨p, q, rfl⟩ : ∃ (p : Fin 512) (q : Fin 128), j = ix2 p q := ⟨j 0, j 1, eq_ix2 j⟩
  have hr' : r.val = 512 * (t.val / 2) + p.val := hr
  refine (Tile.tile_apply (iblk m c 0 t') (iblk m c 0 t) (Pieces.xslab (grid0.coords t') (iblk m c 1 t'))
    (Pieces.xslab (grid0.coords t) (iblk m c 1 t)) (iblk m c 2 t) p q).trans ?_
  exact Gcn.out_of_halves (m ((c : Thread nD τ).loc main_arg0)) (m ((c : Thread nD τ).loc main_arg1)) (m ((c : Thread nD τ).loc main_arg2)) r q
    (fun k => (iblk m c 0 t' : Vec Ideal S512x4096 .f32) (ix2 p k)) (fun k => (iblk m c 0 t : Vec Ideal S512x4096 .f32) (ix2 p k))
    (fun k d => Pieces.xslab (grid0.coords t') (iblk m c 1 t' : Vec Ideal S8192x128 .f32) (ix2 k d))
    (fun k d => Pieces.xslab (grid0.coords t) (iblk m c 1 t : Vec Ideal S8192x128 .f32) (ix2 k d))
    (fun d => (iblk m c 2 t : Vec Ideal S128x128 .f32) (ix2 d q))
    (fun k => adj_block m c t' p k r (Gcn.lo k) (by rw [hr', ht']; omega) (by show k.val = _; rw [ht']; omega))
    (fun k => adj_block m c t p k r (Gcn.hi k) hr' (by show 4096 + k.val = _; omega))
    (fun k d => x_slab m c t' k d (Gcn.lo k) (by show k.val = _; rw [ht']; omega))
    (fun k d => x_slab m c t k d (Gcn.hi k) (by show 4096 + k.val = _; omega))
    (fun d => w_block m c t d q)

/-- The contents after a point depend only on the point's position. -/
theorem outsAt0_congr (c : Dev nD) (n n' : ℕ) (h : n = n') (hn : n < cfg0.N) (hn' : n' < cfg0.N) :
    outsAt0 m c n hn = outsAt0 m c n' hn' := by
  subst h; rfl

/-- What the even point `t'` before an odd point `t` left in the two carried buffers. -/
theorem before_eq (c : Dev nD) (t t' : Fin cfg0.N) (h1 : t.val % 2 = 1) (ht' : t'.val = t.val - 1) :
    outsAt0 m c (t.val - 1) (Nat.lt_of_le_of_lt (Nat.sub_le _ _) t.isLt) = outsAt0 m c t'.val t'.isLt :=
  outsAt0_congr m c (t.val - 1) t'.val ht'.symm _ _

/-- The accumulator an odd point `t` finds: zero plus the first block of `adj` times the first slab of `X`. -/
theorem acc_before (c : Dev nD) (t t' : Fin cfg0.N) (h1 : t.val % 2 = 1) (ht' : t'.val = t.val - 1) :
    (outsAt0 m c (t.val - 1) (Nat.lt_of_le_of_lt (Nat.sub_le _ _) t.isLt)).2.1
      = k0_pay4 (iblk m c 0 t') (Pieces.xslab (grid0.coords t') (iblk m c 1 t')) (k0_pay1 (F := Ideal)) := by
  have p0 : t'.val % 2 = 0 := by omega
  have p1 : ¬t'.val % 2 = 1 := by omega
  refine (congrArg (fun z : Vec Ideal S512x128 .f32 × Vec Ideal S512x128 .f32 × Vec Ideal S512x1 .f32 => z.2.1) ((before_eq m c t t' h1 ht').trans (outsAt0_A m c t' p0 p1))).trans ?_
  exact Pieces.acc_first c (grid0.coords t') (ms0_0 t') (hs0_0 t') (ms0_1 t') (hs0_1 t') (ms0_2 t') (hs0_2 t') (ms0_3 t') (hs0_3 t') scM0_0 (Memref.isWhole_whole _) scM0_1 (Memref.isWhole_whole _) ((hcond0_0 t').mpr p0) (fun h => p1 ((hcond0_1 t').mp h)) (iblk m c 0 t') (iblk m c 1 t') (iblk m c 2 t')

/-- The column of row sums an odd point `t` finds: zero plus the row sums of the first block of `adj`. -/
theorem col_before (c : Dev nD) (t t' : Fin cfg0.N) (h1 : t.val % 2 = 1) (ht' : t'.val = t.val - 1) :
    (outsAt0 m c (t.val - 1) (Nat.lt_of_le_of_lt (Nat.sub_le _ _) t.isLt)).2.2 = k0_pay3 (iblk m c 0 t') (k0_pay2 (F := Ideal)) := by
  have p0 : t'.val % 2 = 0 := by omega
  have p1 : ¬t'.val % 2 = 1 := by omega
  refine (congrArg (fun z : Vec Ideal S512x128 .f32 × Vec Ideal S512x128 .f32 × Vec Ideal S512x1 .f32 => z.2.2) ((before_eq m c t t' h1 ht').trans (outsAt0_A m c t' p0 p1))).trans ?_
  exact Pieces.rowsums_first c (grid0.coords t') (ms0_0 t') (hs0_0 t') (ms0_1 t') (hs0_1 t') (ms0_2 t') (hs0_2 t') (ms0_3 t') (hs0_3 t') scM0_0 (Memref.isWhole_whole _) scM0_1 (Memref.isWhole_whole _) ((hcond0_0 t').mpr p0) (fun h => p1 ((hcond0_1 t').mp h)) (iblk m c 0 t') (iblk m c 1 t') (iblk m c 2 t')

/-- What an odd point `t` leaves in the output's buffer: the epilogue's term over what the even point `t'` before it left. -/
theorem tile_term (c : Dev nD) (t t' : Fin cfg0.N) (h0 : ¬t.val % 2 = 0) (h1 : t.val % 2 = 1) (ht' : t'.val = t.val - 1) :
    (outsAt0 m c t.val t.isLt).1 =
      k0_pay5 (k0_pay4 (iblk m c 0 t) (Pieces.xslab (grid0.coords t) (iblk m c 1 t))
          (k0_pay4 (iblk m c 0 t') (Pieces.xslab (grid0.coords t') (iblk m c 1 t')) (k0_pay1 (F := Ideal))))
        (k0_pay3 (iblk m c 0 t) (k0_pay3 (iblk m c 0 t') (k0_pay2 (F := Ideal)))) (iblk m c 2 t) := by
  refine (congrArg (fun z : Vec Ideal S512x128 .f32 × Vec Ideal S512x128 .f32 × Vec Ideal S512x1 .f32 => z.1) (outsAt0_B m c t h0 h1)).trans ?_
  refine (Pieces.tile_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) _ _).trans ?_
  rw [acc_before m c t t' h1 ht', col_before m c t t' h1 ht']

/-- What an odd point writes back is its block of the layer's result. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : cfg0.N = 32 := N_0
  have htl := t.isLt
  obtain ⟨t', ht'⟩ : ∃ t' : Fin cfg0.N, t'.val = t.val - 1 := ⟨⟨t.val - 1, by omega⟩, rfl⟩
  obtain ⟨-, -, -, -, -, -, e6, e7, -⟩ := where_blocks t
  rw [Value.flushed3, tile_term m c t t' h0 h1 ht']
  funext j
  have hj0 : (j 0).val < 512 := (j 0).isLt
  have hj1 : (j 1).val < 128 := (j 1).isLt
  refine (tile_at m c t t' h1 ht' j ⟨512 * (t.val / 2) + (j 0).val, by omega⟩ rfl).trans ?_
  show result m c _ = result m c (((cfg0.win 3).blk t).view.emb j)
  refine congrArg _ (funext fun a => Fin.ext ?_)
  match a with
  | ⟨0, _⟩ => show 512 * (t.val / 2) + (j 0).val = win0_3.index t (0 : Fin 2) * 512 + 1 * (j 0).val; omega
  | ⟨1, _⟩ => show (j 1).val = win0_3.index t (1 : Fin 2) * 128 + 1 * (j 1).val; omega

/-- Every entry of the result lies in the block some odd point writes back: row `r` lies in row tile `r / 512`. -/
theorem cover (i : S8192x128.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 128 := (i 1).isLt
  let t : Fin cfg0.N := ⟨2 * ((i 0).val / 512) + 1, by omega⟩
  have htv : t.val = 2 * ((i 0).val / 512) + 1 := rfl
  obtain ⟨-, -, -, -, -, -, e6, e7, -⟩ := where_blocks t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- After the run the result array holds the layer's function of the argument arrays. -/
theorem final (c : Dev nD) : (dats m 0 c).arrAt 3 cfg0.N = result m c :=
  (dats m 0 c).arrAt_eq_of_cover 3 (result m c) (flushed_eq m c) cover

/-- The kernel's run: it ends with the result array at the layer's function and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RowNormLaw.lean ====
/-
  Row normalisation commutes with a weighted sum.

  For real numbers `a c`, `x c` over a finite index type and a real `s ≠ 0`, dividing the weighted sum
  `∑ c, a c * x c` by `s` is the weighted sum of the quotients `a c / s`.  On the extended reals a quotient by a
  nonzero real is the product with its reciprocal, so for real entries both sides are the one real number
  `(∑ c, a c * x c) * s⁻¹`.  The hypothesis `s ≠ 0` cannot be dropped: a quotient by zero is an infinity
  of the dividend's sign (`⊥` for `0 / 0`), and `⊥ * 0 = 0`, so at `a = 0`, `x = 0`, `s = 0` the left side is `⊥`
  and the right side `0`.
-/
import Idealize.ShloMosaic.PureOps.Ideal
import Idealize.ShloMosaic.PureOps.Ideal.Laws

noncomputable section

open Idealize.ShloMosaic

namespace Cert.RowNorm

/-- The coercion of reals into the extended reals carries a finite sum to the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a weighted sum of reals by a nonzero real is the weighted sum of the quotients. -/
theorem div_sum_mul {ι : Type*} [Fintype ι] (a x : ι → ℝ) {s : ℝ} (hs : s ≠ 0) :
    Ideal.div (∑ c, (a c : EReal) * (x c : EReal)) (s : EReal)
      = ∑ c, Ideal.div (a c : EReal) (s : EReal) * (x c : EReal) := by
  rw [Ideal.div_coe hs]
  simp only [Ideal.div_coe hs, ← EReal.coe_mul, ← coe_sum]
  congr 1
  rw [Finset.sum_mul]
  exact Finset.sum_congr rfl fun c _ => by ring

end Cert.RowNorm

end
-- ==== Proof.RefValue.lean ====
/-
  The reference computes the layer's function, where the rows of `adj` can be normalised.

  The reference divides every entry of row `r` of `adj` by the row sum `s r` first and then takes the weighted sums:
  its entry `(r, o)` is `∑ d, (∑ c, (adj (r,c) / s r) * X (c,d)) * W (d,o)`.  For real entries of `adj` and `X` and
  `s r ≠ 0`, `∑ c, (adj (r,c) / s r) * X (c,d) = (∑ c, adj (r,c) * X (c,d)) / s r` (normalising commutes with the
  weighted sum), which is the specification's form.  `W` is arbitrary.
-/
import proofs.«149731_j73186242723952_2_alg».proof.Proof.Gen.ReferenceIdeal.Read
import proofs.«149731_j73186242723952_2_alg».proof.Proof.GcnSpec
import proofs.«149731_j73186242723952_2_alg».proof.Proof.RowNormLaw

noncomputable section

namespace Cert.ReferenceIdeal.RefValue

open Idealize.ShloMosaic Idealize.ShloMosaic.ValueIdx
open Cert.ReferenceIdeal Cert.ReferenceIdeal.Gen Cert.ReferenceIdeal.Read

/-- The divisor the reference uses at `(r, c)` is the sum of row `r` (from zero). -/
theorem divisor_apply (A : S8192x8192.Idx → EReal) (r c : Fin 8192) :
    val_main_v2 (F := Ideal) A (ix2 r c) = Cert.Gcn.rowSum A r := by
  rw [val_main_v2_apply, val_main_v1_apply, val_main_v0_apply, val_main_cst_apply]
  show Ideal.ofBits .f32 0x00000000#32 + _ = ∑ k : Fin 8192, A (ix2 r k)
  rw [Ideal.ofBits_zero_f32, zero_add]
  exact Finset.sum_congr rfl fun k _ => congrArg A (funext fun a => Fin.ext (by match a with | ⟨0, _⟩ => rfl | ⟨1, _⟩ => rfl))

/-- The reference's result is the layer's function, for real `adj` and `X` and nonzero row sums of `adj`. -/
theorem ref_eq (a : S8192x8192.Idx → ℝ) (x : S8192x128.Idx → ℝ) (W : S128x128.Idx → EReal)
    (hs : ∀ r : Fin 8192, (∑ c : Fin 8192, a (ix2 r c)) ≠ 0) :
    val_main_v5 (F := Ideal) (fun i => (a i : EReal)) (fun i => (x i : EReal)) W
      = Cert.Gcn.out (fun i => (a i : EReal)) (fun i => (x i : EReal)) W := by
  funext i
  obtain ⟨r, o, rfl⟩ : ∃ (r : Fin 8192) (o : Fin 128), i = ix2 r o := ⟨i 0, i 1, eq_ix2 i⟩
  rw [val_main_v5_apply]
  show _ = ∑ d : Fin 128, Ideal.div (Cert.Gcn.agg _ _ r d) (Cert.Gcn.rowSum _ r) * W (ix2 d o)
  refine Finset.sum_congr rfl fun d _ => ?_
  have el : lidx_main_v5 (ix2 r o) d = ix2 r d := funext fun ax => Fin.ext (by match ax with | ⟨0, _⟩ => rfl | ⟨1, _⟩ => rfl)
  have er : ridx_main_v5 (ix2 r o) d = ix2 d o := funext fun ax => Fin.ext (by match ax with | ⟨0, _⟩ => rfl | ⟨1, _⟩ => rfl)
  rw [el, er, val_main_v4_apply]
  refine congrArg (· * W (ix2 d o)) ?_
  have hrow : Cert.Gcn.rowSum (fun i => (a i : EReal)) r = ((∑ c : Fin 8192, a (ix2 r c) : ℝ) : EReal) := by
    unfold Cert.Gcn.rowSum; rw [Cert.RowNorm.coe_sum]
  have e3 : ∀ c : Fin 8192, val_main_v3 (F := Ideal) (fun i => (a i : EReal)) (lidx_main_v4 (ix2 r d) c) * (x (ridx_main_v4 (ix2 r d) c) : EReal)
      = Ideal.div (a (ix2 r c) : EReal) ((∑ c : Fin 8192, a (ix2 r c) : ℝ) : EReal) * (x (ix2 c d) : EReal) := by
    intro c
    have e1 : lidx_main_v4 (ix2 r d) c = ix2 r c := funext fun ax => Fin.ext (by match ax with | ⟨0, _⟩ => rfl | ⟨1, _⟩ => rfl)
    have e2 : ridx_main_v4 (ix2 r d) c = ix2 c d := funext fun ax => Fin.ext (by match ax with | ⟨0, _⟩ => rfl | ⟨1, _⟩ => rfl)
    rw [e1, e2, val_main_v3_apply, divisor_apply, hrow]
    rfl
  rw [Finset.sum_congr rfl fun c _ => e3 c, hrow]
  unfold Cert.Gcn.agg
  exact (Cert.RowNorm.div_sum_mul (fun c => a (ix2 r c)) (fun c => x (ix2 c d)) (hs r)).symm

end Cert.ReferenceIdeal.RefValue

end
-- ==== Proof.PreDecode.lean ====
/-
  What the precondition says about the argument arrays, on the extended reals.

  Every entry of `adj` and of `X` has absolute value below `+∞`, so it is a real number; and every row sum of
  `adj` is different from zero.  (The precondition says the same of `W`'s entries; that is not used.)
-/
import proofs.«149731_j73186242723952_2_alg».proof.Proof.Gen.Pre_finite_inputs
import proofs.«149731_j73186242723952_2_alg».proof.Proof.GcnSpec
import proofs.«149731_j73186242723952_2_alg».proof.Proof.RowNormLaw
import Idealize.ShloMosaic.Lib.ReduceAll
import Idealize.ShloMosaic.Lib.Pipeline.Value
import Idealize.ShloMosaic.Lib.Affine
import Idealize.ShloMosaic.Lib.IdealHost
import Idealize.ShloMosaic.Lib.ValueIdx
import Idealize.ShloMosaic.PureOps.Ideal.Laws

noncomputable section

namespace Cert.PreDecode

open Idealize.ShloMosaic Idealize.ShloMosaic.ValueIdx
open Cert.Pre_finite_inputs

instance : Subsingleton S_.Idx := ⟨fun a b => funext fun d => d.elim0⟩

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- The host's sum of row `r` of `adj`, from zero, is the specification's row sum. -/
theorem rowsum_host [Facts] (A : S8192x8192.Idx → EReal) (r : Fin 8192) :
    Host.reduceAdd A (constant (F := Ideal) S_ .f32 0x00000000#32) Facts.reducesTo_S8192x8192_S8192_d1 Facts.h_S_ (ix1 r)
      = Cert.Gcn.rowSum A r := by
  simp only [Host.reduceAdd, Ideal.hostReduceAdd_def]
  rw [Ideal.hostReduceAdd_single Facts.reducesTo_S8192x8192_S8192_d1 (by decide)]
  show Ideal.ofBits .f32 0x00000000#32 + _ = ∑ k : Fin 8192, A (ix2 r k)
  rw [Ideal.ofBits_zero_f32, zero_add]
  exact Finset.sum_congr rfl fun k _ => congrArg A (funext fun a => Fin.ext (by match a with | ⟨0, _⟩ => rfl | ⟨1, _⟩ => rfl))

/-- The zero every row sum is compared with. -/
theorem zero_row [Facts] (r : Fin 8192) :
    broadcastInDim S8192 ![] Facts.bcast_S_S8192 (constant (F := Ideal) S_ .f32 0x00000000#32) (ix1 r) = (0 : EReal) := by
  rw [broadcastInDim_apply _ Facts.bcast_S_S8192 _ (ix1 r) ix0 (fun a => a.elim0)]
  exact Ideal.ofBits_zero_f32

/-- Under the precondition the entries of `adj` and `X` are reals and no row of `adj` sums to zero. -/
theorem decode [Facts] (A : S8192x8192.Idx → EReal) (X : S8192x128.Idx → EReal) (W : S128x128.Idx → EReal)
    (h : fn (F := Ideal) A X W = fun _ => 1#1) :
    (∀ i, ∃ r : ℝ, A i = (r : EReal)) ∧ (∀ i, ∃ r : ℝ, X i = (r : EReal)) ∧ (∀ r : Fin 8192, Cert.Gcn.rowSum A r ≠ 0) := by
  have h0 := congrFun h ix0
  dsimp only [fn, fn_part1] at h0
  have hS := (IntOp.andi_eq_one.mp h0).2
  have h123 := (IntOp.andi_eq_one.mp h0).1
  have h12 := (IntOp.andi_eq_one.mp h123).1
  have hX := (IntOp.andi_eq_one.mp h12).2
  have hA := (IntOp.andi_eq_one.mp h12).1
  refine ⟨fun i => real_of_abs_lt (A i) (Host.reduce_andi_all _ _ _ _ ix0 hA i),
    fun i => real_of_abs_lt (X i) (Host.reduce_andi_all _ _ _ _ ix0 hX i), fun r hr0 => ?_⟩
  have hr := Host.reduce_andi_all _ _ _ _ ix0 hS (ix1 r)
  have hc : Ideal.cmp .une
      (Host.reduceAdd A (constant (F := Ideal) S_ .f32 0x00000000#32) Facts.reducesTo_S8192x8192_S8192_d1 Facts.h_S_ (ix1 r))
      (broadcastInDim S8192 ![] Facts.bcast_S_S8192 (constant (F := Ideal) S_ .f32 0x00000000#32) (ix1 r)) = 1#1 := hr
  rw [rowsum_host, zero_row, hr0] at hc
  simp [Ideal.cmp] at hc

end Cert.PreDecode

end
-- ==== Proof.lean ====
/-
  A graph-convolution layer with a row-normalised adjacency: `out = ((adj / rowsum(adj)) · X) · W` for
  `adj : 8192×8192`, `X : 8192×128`, `W : 128×128`, against a tiled kernel that streams `adj` once.

  The kernel walks a 16×2 grid: for each tile of 512 rows it accumulates, over the two halves of the columns, both the
  512×128 product of the block of `adj` with the matching rows of `X` and the 512 row sums, and at the second half
  divides the accumulated product by the row sums and multiplies by `W`.  So the kernel computes
  `∑ d, ((∑ c, adj (r,c) X (c,d)) / s r) W (d,o)` and the reference `∑ d, (∑ c, (adj (r,c) / s r) X (c,d)) W (d,o)`,
  with `s r = ∑ c, adj (r,c)`.  On the extended reals the two agree when the entries of `adj` and `X` are real
  numbers and `s r ≠ 0`: dividing by a nonzero real is multiplying by its reciprocal, which distributes over a sum of
  reals.  They do NOT agree at `s r = 0` (a quotient by zero is an infinity of the dividend's sign, `⊥` for `0/0`, and
  `⊥ · 0 = 0`: at `adj = 0`, `X = 0`, `W = 1` the kernel's entry is `⊥` and the reference's `0`), which is why the
  precondition asks that no row of `adj` sums to zero — the domain on which the reference's own division is defined.
  Re-tiling the sums (two halves of 4096 for one sum of 8192) needs no hypothesis.
-/
import proofs.«149731_j73186242723952_2_alg».proof.Defs
import proofs.«149731_j73186242723952_2_alg».proof.Proof.Gen.Kernel
import proofs.«149731_j73186242723952_2_alg».proof.Proof.Gen.Kernel.Frame
import proofs.«149731_j73186242723952_2_alg».proof.Proof.Gen.KernelIdeal
import proofs.«149731_j73186242723952_2_alg».proof.Proof.Gen.KernelIdeal.Frame
import proofs.«149731_j73186242723952_2_alg».proof.Proof.Gen.KernelIdeal.Value
import proofs.«149731_j73186242723952_2_alg».proof.Proof.Gen.ReferenceIdeal
import proofs.«149731_j73186242723952_2_alg».proof.Proof.Gen.ReferenceIdeal.Run
import proofs.«149731_j73186242723952_2_alg».proof.Proof.Gen.ReferenceIdeal.Read
import proofs.«149731_j73186242723952_2_alg».proof.Proof.Gen.Pre_finite_inputs
import proofs.«149731_j73186242723952_2_alg».proof.Proof.KernelWhole
import proofs.«149731_j73186242723952_2_alg».proof.Proof.RefValue
import proofs.«149731_j73186242723952_2_alg».proof.Proof.PreDecode
import Idealize.ShloMosaic.Adequacy
import Idealize.ShloMosaic.Init

noncomputable section

namespace Cert.Proof

open Idealize.ShloMosaic Idealize.ShloMosaic.ValueIdx Idealize.SL.Sem

/-- Under the precondition the reference's composed term of three arrays is the layer's function of them. -/
theorem reference_is_layer [Cert.ReferenceIdeal.Facts] [Cert.Pre_finite_inputs.Facts]
    (A : Cert.ReferenceIdeal.S8192x8192.Idx → EReal) (X : Cert.ReferenceIdeal.S8192x128.Idx → EReal)
    (W : Cert.ReferenceIdeal.S128x128.Idx → EReal)
    (hpre : Cert.Pre_finite_inputs.fn (F := Ideal) A X W = fun _ => 1#1) :
    Cert.ReferenceIdeal.Read.val_main_v5 (F := Ideal) A X W = Cert.Gcn.out A X W := by
  obtain ⟨hA, hX, hS⟩ := Cert.PreDecode.decode A X W hpre
  choose a ha using hA
  choose x hx using hX
  obtain rfl : A = fun i => (a i : EReal) := funext ha
  obtain rfl : X = fun i => (x i : EReal) := funext hx
  refine Cert.ReferenceIdeal.RefValue.ref_eq a x W fun r h0 => hS r ?_
  unfold Cert.Gcn.rowSum
  rw [← Cert.RowNorm.coe_sum, h0, EReal.coe_zero]

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the layer's function of the (agreeing) argument arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  exact reference_is_layer _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
